-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000x8 : Shape := ⟨2, ![1600000, 8]⟩
abbrev S128x256 : Shape := ⟨2, ![128, 256]⟩
abbrev S8x1 : Shape := ⟨2, ![8, 1]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S128x256 : S_.BroadcastsInDim S128x256 (![] : Fin 0 → Fin S128x256.rank)
  reducesTo_S128x256_S_d0_1 : S128x256.ReducesTo [0, 1] S_
  bcast_S_S8x1 : S_.BroadcastsInDim S8x1 (![] : Fin 0 → Fin S8x1.rank)
  reducesTo_S8x1_S_d0_1 : S8x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S8x1 .f32) (main_arg6 : FVec F S256 .f32) (main_arg7 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S8x1 .f32 := Host.absf main_arg5
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S1600000x8 .f32) (main_arg3 : FVec F S128x256 .f32) (main_arg4 : FVec F S128x256 .f32) (main_arg5 : FVec F S8x1 .f32) (main_arg6 : FVec F S256 .f32) (main_arg7 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S1600000x8 : Shape := ⟨2, ![1600000, 8]⟩
abbrev S128x256 : Shape := ⟨2, ![128, 256]⟩
abbrev S8x1 : Shape := ⟨2, ![8, 1]⟩
abbrev S256 : Shape := ⟨1, ![256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x8 : Shape := ⟨2, ![1, 8]⟩
abbrev S8000x128 : Shape := ⟨2, ![8000, 128]⟩
abbrev S8000x8 : Shape := ⟨2, ![8000, 8]⟩
abbrev S8000 : Shape := ⟨1, ![8000]⟩
abbrev S8000x1 : Shape := ⟨2, ![8000, 1]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000 : Shape := ⟨1, ![2000]⟩
abbrev S2000x1 : Shape := ⟨2, ![2000, 1]⟩

abbrev nBuf : Space → Nat
  | .hbm => 42
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x8, .f32⟩
  | .hbm, ⟨3, _⟩ => ⟨S128x256, .f32⟩
  | .hbm, ⟨4, _⟩ => ⟨S128x256, .f32⟩
  | .hbm, ⟨5, _⟩ => ⟨S8x1, .f32⟩
  | .hbm, ⟨6, _⟩ => ⟨S256, .f32⟩
  | .hbm, ⟨7, _⟩ => ⟨S256, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1x8, .f32⟩
  | .hbm, ⟨22, _⟩ => ⟨S1600000x128, .f32⟩
  | .hbm, ⟨23, _⟩ => ⟨S_, .f32⟩
  | .hbm, ⟨24, _⟩ => ⟨S50000x128, .f32⟩
  | .hbm, ⟨25, _⟩ => ⟨S1600000x1, .i32⟩
  | .hbm, ⟨26, _⟩ => ⟨S50000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S1x256, .f32⟩
  | .hbm, ⟨40, _⟩ => ⟨S1x256, .f32⟩
  | .hbm, ⟨41, _⟩ => ⟨S50000x256, .f32⟩
  | .local _ .vmem, ⟨0, _⟩ => ⟨S8000x128, .f32⟩
  | .local _ .vmem, ⟨1, _⟩ => ⟨S8000x128, .f32⟩
  | .local _ .vmem, ⟨2, _⟩ => ⟨S8000x8, .f32⟩
  | .local _ .vmem, ⟨3, _⟩ => ⟨S8000x8, .f32⟩
  | .local _ .vmem, ⟨4, _⟩ => ⟨S1x8, .f32⟩
  | .local _ .vmem, ⟨5, _⟩ => ⟨S8000x128, .f32⟩
  | .local _ .vmem, ⟨6, _⟩ => ⟨S8000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x256, .f32⟩
  | .local _ .vmem, ⟨12, _⟩ => ⟨S128x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S8x1_S1x8 : S8x1.ShapeCasts S1x8
  inb_S8000x8_S8000x8_0_0 : ∀ a, (![0, 0] : Fin 2 → Nat) a + S8000x8.size a ≤ S8000x8.size a
  h_S8000x8 : 0 < S8000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  reduces_S8000x8_S8000 : S8000x8.Reduces [1] S8000
  shapeCasts_S8000_S8000x1 : S8000.ShapeCasts S8000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  broadcasts_S8000x1_S8000x128 : S8000x1.Broadcasts S8000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  reduces_S2000x256_S2000 : S2000x256.Reduces [1] S2000
  shapeCasts_S2000_S2000x1 : S2000.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S1600000x8.size a
  hwx0_1 : ∀ i : grid0.Coords, EltTy.bits .f32 = 32 ∨ (Rect.block (s := S1600000x8) S8000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S1600000x128.size a
  hwx0_3 : ∀ i : grid0.Coords, EltTy.bits .f32 = 32 ∨ (Rect.block (s := S1600000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000x8 : Shape := ⟨2, ![1600000, 8]⟩
abbrev S128x256 : Shape := ⟨2, ![128, 256]⟩
abbrev S8x1 : Shape := ⟨2, ![8, 1]⟩
abbrev S256 : Shape := ⟨1, ![256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000x8, .f32⟩
  | .hbm, ⟨3, _⟩ => ⟨S128x256, .f32⟩
  | .hbm, ⟨4, _⟩ => ⟨S128x256, .f32⟩
  | .hbm, ⟨5, _⟩ => ⟨S8x1, .f32⟩
  | .hbm, ⟨6, _⟩ => ⟨S256, .f32⟩
  | .hbm, ⟨7, _⟩ => ⟨S256, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x1, .f32⟩
  | .hbm, ⟨23, _⟩ => ⟨S1600000x1, .f32⟩
  | .hbm, ⟨24, _⟩ => ⟨S_, .f32⟩
  | .hbm, ⟨25, _⟩ => ⟨S1600000x1, .f32⟩
  | .hbm, ⟨26, _⟩ => ⟨S1600000x1, .f32⟩
  | .hbm, ⟨27, _⟩ => ⟨S_, .f32⟩
  | .hbm, ⟨28, _⟩ => ⟨S1600000x1, .f32⟩
  | .hbm, ⟨29, _⟩ => ⟨S1600000x1, .f32⟩
  | .hbm, ⟨30, _⟩ => ⟨S_, .f32⟩
  | .hbm, ⟨31, _⟩ => ⟨S1600000x1, .f32⟩
  | .hbm, ⟨32, _⟩ => ⟨S1600000x1, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S50000x128, .f32⟩
  | .hbm, ⟨37, _⟩ => ⟨S1600000x1, .i32⟩
  | .hbm, ⟨38, _⟩ => ⟨S50000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S50000, .f32⟩
  | .hbm, ⟨43, _⟩ => ⟨S1600000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S50000x256, .f32⟩
  | .hbm, ⟨50, _⟩ => ⟨S50000x128, .f32⟩
  | .hbm, ⟨51, _⟩ => ⟨S50000x128, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S_, .f32⟩
  | .hbm, ⟨58, _⟩ => ⟨S50000, .f32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000, .f32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x1, .f32⟩
  | .hbm, ⟨78, _⟩ => ⟨S50000x256, .f32⟩
  | .hbm, ⟨79, _⟩ => ⟨S50000x256, .f32⟩
  | .hbm, ⟨80, _⟩ => ⟨S1x256, .f32⟩
  | .hbm, ⟨81, _⟩ => ⟨S50000x256, .f32⟩
  | .hbm, ⟨82, _⟩ => ⟨S50000x256, .f32⟩
  | .hbm, ⟨83, _⟩ => ⟨S1x256, .f32⟩
  | .hbm, ⟨84, _⟩ => ⟨S50000x256, .f32⟩
  | .hbm, ⟨85, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x256 : S_.BroadcastsInDim S50000x256 (![] : Fin 0 → Fin S50000x256.rank)
  reducesTo_S50000x256_S50000_d1 : S50000x256.ReducesTo [1] S50000
  h_S_ : 0 < S_.numel
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x128_S1600000x1_S1600000x128_1_0_n_n_0_1_1128_wf : GatherDims.WF S50000x128 S1600000x1 S1600000x128 [1] [0] [] [0] [] 1 ![1, 128]
  dot_S1600000x8_S8x1_S1600000x1_1_0_0_1_n_n_wf : DotDims.WF S1600000x8 S8x1 S1600000x1 [1] [0] [0] [1] [] []
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x256_S50000x256_1_0_0_1_n_n_wf : DotDims.WF S50000x128 S128x256 S50000x256 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def dot_S1600000x8_S8x1_S1600000x1_1_0_0_1_n_n : DotDims S1600000x8 S8x1 S1600000x1 where
  lhsContracting := [1]
  rhsContracting := [0]
  lhsNonContracting := [0]
  rhsNonContracting := [1]
  lhsBatch := []
  rhsBatch := []
  wf := dot_S1600000x8_S8x1_S1600000x1_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.RowMath.lean ====
/-
  The mathematics of the two kernels, per row, over the extended reals.

  An edge's gate is the logistic of the inner product of the edge's eight attributes with the eight edge weights,
  clamped below by a small positive literal; the edge's message is its source row scaled by the gate.

  A node's output row is the layer normalization, over the 256 hidden columns, of the rectified sum of two matrix
  products: the node's own 128 features with the self weights plus its 128 averaged neighbour features with the
  neighbour weights; the normalized value is scaled by gamma and shifted by beta, column by column.
-/
import Idealize.ShloMosaic.PureOps.Ideal
import Idealize.ShloMosaic.PureOps.Ideal.Laws
import Idealize.ShloMosaic.Lib.ValueIdx

noncomputable section

open scoped BigOperators

namespace Cert.RowMath

open Idealize.ShloMosaic Idealize.ShloMosaic.ValueIdx

/-- The f32 literal `1.0` denotes the real `1`. -/
theorem ofBits_one : Ideal.ofBits .f32 0x3F800000#32 = 1 := by
  simp [Ideal.ofBits, Ideal.ieee, -EReal.coe_mul]; norm_num

/-- The gate of one edge: `max (logistic (∑ k, ea k · w k)) ε`, with `ε` the f32 literal nearest 1e-6. -/
def gate (ea w : Fin 8 → EReal) : EReal :=
  max (Ideal.logistic (∑ k : Fin 8, ea k * w k)) (Ideal.ofBits .f32 0x358637BD#32)

/-- The rectified hidden row of one node at column `h`:
    `max (∑ k, z k · Ws (k, h) + ∑ k, a k · Wn (k, h)) 0`. -/
def hid (zr ar : Fin 128 → EReal) (Ws Wn : (⟨2, ![128, 256]⟩ : Shape).Idx → EReal) (h : Fin 256) : EReal :=
  max ((∑ k : Fin 128, zr k * Ws (ix2 k h)) + ∑ k : Fin 128, ar k * Wn (ix2 k h)) (Ideal.ofBits .f32 0x00000000#32)

/-- The mean of a row of 256 entries: the sum divided by the literal 256. -/
def mean (H : Fin 256 → EReal) : EReal :=
  Ideal.div (∑ h : Fin 256, H h) (Ideal.ofBits .f32 0x43800000#32)

/-- Layer normalization of a row at column `h`:
    `(H h − μ) · rsqrt (mean ((H − μ)²) + ε) · g h + b h`, with `μ = mean H` and `ε` the f32 literal nearest 1e-5. -/
def normed (H g b : Fin 256 → EReal) (h : Fin 256) : EReal :=
  (H h - mean H) * Ideal.rsqrt (mean (fun h' => (H h' - mean H) * (H h' - mean H)) + Ideal.ofBits .f32 0x3727C5AC#32)
    * g h + b h

/-- A node's output at column `h`. -/
def nodeOut (zr ar : Fin 128 → EReal) (Ws Wn : (⟨2, ![128, 256]⟩ : Shape).Idx → EReal) (g b : Fin 256 → EReal)
    (h : Fin 256) : EReal :=
  normed (hid zr ar Ws Wn) g b h

end Cert.RowMath

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.EdgePayload.lean ====
/-
  What the edge kernel stores for one block of 8000 edges, read at a row `r` and a lane `d`:
  the source feature at `(r, d)` times the gate of edge `r`, the gate computed from the eight attributes
  of row `r` of the attribute block and the one row of eight edge weights.
-/
import proofs.«163711_j14353780704090_1_alg».proof.Proof.Gen.KernelIdeal.Skeleton
import proofs.«163711_j14353780704090_1_alg».proof.Proof.RowMath
import proofs.«163711_j14353780704090_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Lib.Keepdims Cert.RowMath

/-- The stored value of the edge kernel at row `r`, lane `d` of its block. -/
theorem edge_payload (x1 : Vec Ideal S8000x8 .f32) (x2 : Vec Ideal S1x8 .f32) (x0 : Vec Ideal S8000x128 .f32)
    (r : Fin 8000) (d : Fin 128) :
    k0_pay1 (F := Ideal) x1 x2 x0 (ix2 r d)
      = x0 (ix2 r d) * gate (fun k => x1 (ix2 r k)) (fun k => x2 (ix2 (0 : Fin 1) k)) := by
  unfold k0_pay1
  dsimp only
  show _ * _ = _
  refine congrArg₂ (· * ·) (congrFun (shapeCast_self x0 _) (ix2 r d)) ?_
  refine (broadcastTo_a1_ab_apply _ _ r d).trans ?_
  show max (Ideal.logistic (shapeCast S8000x1 _ _ (ix2 r (0 : Fin 1)))) (Ideal.ofBits .f32 0x358637BD#32) = _
  unfold gate
  refine congrArg (fun s => max (Ideal.logistic s) _) ?_
  refine (shapeCast_a_a1_apply _ _ r 0).trans ?_
  refine (rowSum_apply _ _ _ _ _ r).trans ?_
  refine Finset.sum_congr rfl fun k _ => ?_
  show x1 (ix2 r k) * _ = _
  refine congrArg (x1 (ix2 r k) * ·) ?_
  refine (broadcastTo_1b_ab_apply _ _ r k).trans ?_
  exact congrFun (shapeCast_self x2 _) _

end Cert.KernelIdeal.Hand

end
-- ==== Proof.EdgeBlocks.lean ====
/-
  From the edge kernel's blocks to the whole message array. Grid point `t` of 200 handles edges
  `8000 t … 8000 t + 7999`: it reads rows `8000 t + r` of the gathered source features and of the edge attributes,
  and the one row of edge weights, and writes rows `8000 t + r` of the messages. So the block point `t` writes back
  is block `t` of ONE function of the three arrays — at `(e, d)`, the source feature times the gate of edge `e` —
  and the 200 blocks tile the array (edge `e` lies in the block of point `e / 8000`).
-/
import proofs.«163711_j14353780704090_1_alg».proof.Proof.Gen.KernelIdeal.Frame
import proofs.«163711_j14353780704090_1_alg».proof.Proof.EdgePayload
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.SL.Sem Cert.RowMath
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The message array as one function of the gathered source features `SF`, the edge attributes `EA` and the row
    `w` of edge weights: at `(e, d)`, `SF (e, d) · gate (EA row e) w`. -/
def msgArr (SF : S1600000x128.Idx → EReal) (EA : S1600000x8.Idx → EReal) (w : S1x8.Idx → EReal) :
    S1600000x128.Idx → EReal := fun i =>
  SF i * gate (fun k => EA (ix2 (⟨(i 0).val, idx2_lt0 i⟩ : Fin 1600000) k)) (fun k => w (ix2 (0 : Fin 1) k))

/-- Where the edge kernel's windows sit at point `t`: the three edge-indexed windows at block row `t`, the weights'
    window at its one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the message array. -/
theorem flushed0_eq (c : Dev nD) (t : Fin cfg0.N) :
    (dat0 V c).flushed 3 t
      = ((cfg0.win 3).blk t).view.read (Elt Ideal) (msgArr (V c main_v10) (V c main_arg2) (V c main_v11)) := by
  show (cfg0.win 3).cut (grid0.coords t) ((dat0 V c).after 3 t) = _
  rw [after0_3]
  unfold out0_3
  rw [View.canon_unit_zero hz2]
  simp only [View.ld_unit_zero (S := S8000x8) hz2, View.ld_unit_zero (S := S1x8) hz2, View.ld_unit_zero (S := S8000x128) hz2]
  obtain ⟨e0, e1, e2, e3, e4, e5, e6, e7⟩ := idx_facts0 t
  funext j
  obtain ⟨r, d, rfl⟩ : ∃ (r : Fin 8000) (d : Fin 128), j = ix2 r d := ⟨j 0, j 1, eq_ix2 j⟩
  show k0_pay1 (F := Ideal) (iblk0 V c 1 t) (iblk0 V c 2 t) (iblk0 V c 0 t) (ix2 r d)
    = msgArr (V c main_v10) (V c main_arg2) (V c main_v11) (((cfg0.win 3).blk t).view.emb (ix2 r d))
  refine (edge_payload (iblk0 V c 1 t) (iblk0 V c 2 t) (iblk0 V c 0 t) r d).trans ?_
  unfold msgArr
  have hr : r.val < 8000 := r.isLt
  have hd : d.val < 128 := d.isLt
  refine congrArg₂ (· * ·) ?_ (congrArg₂ gate (funext fun k => ?_) (funext fun k => ?_))
  · show V c main_v10 (((cfg0.win 0).blk t).view.emb (ix2 r d)) = V c main_v10 (((cfg0.win 3).blk t).view.emb (ix2 r d))
    refine congrArg (V c main_v10) (funext fun a => Fin.ext ?_)
    match a with
    | ⟨0, _⟩ => show win0_0.index t (0 : Fin 2) * 8000 + 1 * r.val = win0_3.index t (0 : Fin 2) * 8000 + 1 * r.val; omega
    | ⟨1, _⟩ => show win0_0.index t (1 : Fin 2) * 128 + 1 * d.val = win0_3.index t (1 : Fin 2) * 128 + 1 * d.val; omega
  · show V c main_arg2 (((cfg0.win 1).blk t).view.emb (ix2 r k)) = V c main_arg2 _
    refine congrArg (V c main_arg2) (funext fun a => Fin.ext ?_)
    match a with
    | ⟨0, _⟩ => show win0_1.index t (0 : Fin 2) * 8000 + 1 * r.val = win0_3.index t (0 : Fin 2) * 8000 + 1 * r.val; omega
    | ⟨1, _⟩ => show win0_1.index t (1 : Fin 2) * 8 + 1 * k.val = k.val; omega
  · show V c main_v11 (((cfg0.win 2).blk t).view.emb (ix2 (0 : Fin 1) k)) = V c main_v11 _
    refine congrArg (V c main_v11) (funext fun a => Fin.ext ?_)
    match a with
    | ⟨0, _⟩ => show win0_2.index t (0 : Fin 2) * 1 + 1 * 0 = 0; omega
    | ⟨1, _⟩ => show win0_2.index t (1 : Fin 2) * 8 + 1 * k.val = k.val; omega

/-- An index of the message array is in point `t`'s block iff each coordinate is in the block's range on its axis. -/
theorem mem_blk0 (t : Fin cfg0.N) (i : S1600000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v12).slice (win0_3.rect t)).set ↔ _
  rw [View.set_slice_whole, Rect.mem_set_unit]
  exact Iff.rfl

/-- Every index of the message array is in some point's block: edge `e` in that of point `e / 8000`. -/
theorem cover0 (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  have hN : grid0.N = 200 := N_0
  have ht : (i 0).val / 8000 < cfg0.N := by show (i 0).val / 8000 < grid0.N; rw [hN]; omega
  obtain ⟨_, _, _, _, _, _, e6, e7⟩ := idx_facts0 ⟨(i 0).val / 8000, ht⟩
  refine ⟨⟨(i 0).val / 8000, ht⟩, flush0_3 _, ?_⟩
  rw [mem_blk0]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    rw [e6]; show (i 0).val / 8000 * 8000 ≤ (i 0).val ∧ (i 0).val < (i 0).val / 8000 * 8000 + 8000; omega
  | ⟨1, _⟩ =>
    show win0_3.index ⟨(i 0).val / 8000, ht⟩ (1 : Fin 2) * 128 ≤ (i 1).val
      ∧ (i 1).val < win0_3.index ⟨(i 0).val / 8000, ht⟩ (1 : Fin 2) * 128 + 128
    rw [e7]; omega

/-- THE MESSAGE ARRAY after the edge kernel's run. -/
theorem final0 (c : Dev nD) :
    (dat0 V c).arrAt 3 cfg0.N = msgArr (V c main_v10) (V c main_arg2) (V c main_v11) :=
  (dat0 V c).arrAt_eq_of_cover 3 _ (fun t _ => flushed0_eq V c t) cover0

end Cert.KernelIdeal.Hand

end
-- ==== Proof.NodePayload.lean ====
/-
  What the node kernel stores for one block of 2000 nodes, read at a row `r` and a hidden column `h`:
  the layer-normalized, rectified sum of the two matrix products of row `r`, scaled by gamma and shifted by beta.

  The block is cut in three: the rectified hidden block (two matrix products into zero accumulators, added, clamped
  at zero), the row statistics (a row mean is the row's sum over 256 lanes divided by 256; the centred block subtracts
  it; the variance is the row mean of the centred block's squares), and the normalization itself.
-/
import proofs.«163711_j14353780704090_1_alg».proof.Proof.Gen.KernelIdeal.Skeleton
import proofs.«163711_j14353780704090_1_alg».proof.Proof.RowMath
import proofs.«163711_j14353780704090_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Cert.Lib.Keepdims Cert.RowMath

/-- The node kernel's matrix product: [2000,128] by [128,256], contracting the 128 axis. -/
abbrev DK : DotDims S2000x128 S128x256 S2000x256 := dot_S2000x128_S128x256_S2000x256_1_0_0_1_n_n

theorem DK_lhs0 (i : S2000x256.Idx) (q : DK.contr.Idx) : (DK.lhsIdx i q 0).val = (i 0).val := by
  unfold DotDims.lhsIdx
  rw [dif_neg (show ¬(0 : Fin S2000x128.rank) ∈ DK.lhsBatch by decide), dif_pos (show (0 : Fin S2000x128.rank) ∈ DK.lhsNonContracting by decide)]
  rfl
theorem DK_lhs1 (i : S2000x256.Idx) (q : DK.contr.Idx) : (DK.lhsIdx i q 1).val = (q ⟨0, by decide⟩).val :=
  DK.lhsIdx_val_of_single rfl i q
theorem DK_rhs0 (i : S2000x256.Idx) (q : DK.contr.Idx) : (DK.rhsIdx i q 0).val = (q ⟨0, by decide⟩).val :=
  DK.rhsIdx_val_of_single rfl i q
theorem DK_rhs1 (i : S2000x256.Idx) (q : DK.contr.Idx) : (DK.rhsIdx i q 1).val = (i 1).val := by
  unfold DotDims.rhsIdx
  rw [dif_neg (show ¬(1 : Fin S128x256.rank) ∈ DK.rhsBatch by decide), dif_pos (show (1 : Fin S128x256.rank) ∈ DK.rhsNonContracting by decide)]
  rfl

/-- A matrix product into the zero accumulator, at `(r, h)`: the sum over the 128 contracted coordinates of the
    left operand's row `r` times the right operand's column `h`. -/
theorem matmul_zero_apply (l : FVec Ideal S2000x128 .bf16) (w : FVec Ideal S128x256 .bf16) (r : Fin 2000) (h : Fin 256) :
    matmul DK none l w (constant S2000x256 .f32 0x00000000#32) (ix2 r h) = ∑ k : Fin 128, l (ix2 r k) * w (ix2 k h) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : DK.lhsIdx (ix2 r h) ((contrEquiv1 DK 128 rfl rfl).symm k) = ix2 r k := funext fun a => Fin.ext (by
    match a with
    | ⟨0, _⟩ => exact DK_lhs0 _ _
    | ⟨1, _⟩ => exact (DK_lhs1 _ _).trans hk)
  have er : DK.rhsIdx (ix2 r h) ((contrEquiv1 DK 128 rfl rfl).symm k) = ix2 k h := funext fun a => Fin.ext (by
    match a with
    | ⟨0, _⟩ => exact (DK_rhs0 _ _).trans hk
    | ⟨1, _⟩ => exact DK_rhs1 _ _)
  rw [el, er]

/-- The rectified hidden block: the two products added and clamped at zero. -/
def hidBlock (x0 x1 : Vec Ideal S2000x128 .f32) (x2 x3 : Vec Ideal S128x256 .f32) : FVec Ideal S2000x256 .f32 :=
  maximumf (addf
    (matmul DK none (truncf .bf16 x0 bitsLt_bf16_f32) (truncf .bf16 x2 bitsLt_bf16_f32) (constant S2000x256 .f32 0x00000000#32))
    (matmul DK none (truncf .bf16 (shapeCast S2000x128 x1 shapeCasts_S2000x128_S2000x128) bitsLt_bf16_f32) (truncf .bf16 x3 bitsLt_bf16_f32) (constant S2000x256 .f32 0x00000000#32)))
    (broadcast S2000x256 (Scalar.ofBits .f32 0x00000000#32))

theorem hidBlock_apply (x0 x1 : Vec Ideal S2000x128 .f32) (x2 x3 : Vec Ideal S128x256 .f32) (r : Fin 2000) (h : Fin 256) :
    hidBlock x0 x1 x2 x3 (ix2 r h) = hid (fun k => x0 (ix2 r k)) (fun k => x1 (ix2 r k)) x2 x3 h := by
  unfold hidBlock hid
  show max (_ + _) (Ideal.ofBits .f32 0x00000000#32) = _
  refine congrArg (max · _) (congrArg₂ (· + ·) ((matmul_zero_apply _ _ r h).trans ?_) ((matmul_zero_apply _ _ r h).trans ?_))
  · rfl
  · refine Finset.sum_congr rfl fun k _ => ?_
    show shapeCast S2000x128 x1 shapeCasts_S2000x128_S2000x128 (ix2 r k) * x3 (ix2 k h) = _
    rw [shapeCast_self]

/-- The mean of each row, kept as a column: the lane sum divided by 256. -/
def rowMean (X : FVec Ideal S2000x256 .f32) : FVec Ideal S2000x1 .f32 :=
  divf (shapeCast S2000x1 (multiReduction .add [1] S2000 X 0x00000000#32 reduces_S2000x256_S2000 (.inl rfl) rfl) shapeCasts_S2000_S2000x1)
    (broadcast S2000x1 (Scalar.ofBits .f32 0x43800000#32))

theorem rowMean_apply (X : FVec Ideal S2000x256 .f32) (r : Fin 2000) (u : Fin 1) :
    rowMean X (ix2 r u) = mean (fun c => X (ix2 r c)) := by
  unfold rowMean mean
  show Ideal.div _ (Ideal.ofBits .f32 0x43800000#32) = _
  refine congrArg (Ideal.div · _) ?_
  refine (shapeCast_a_a1_apply _ _ r u).trans ?_
  exact rowSum_apply _ _ _ _ _ r

/-- The block with each row's mean subtracted. -/
def centered (X : FVec Ideal S2000x256 .f32) : FVec Ideal S2000x256 .f32 :=
  subf X (broadcastTo S2000x256 (rowMean X) broadcasts_S2000x1_S2000x256)

theorem centered_apply (X : FVec Ideal S2000x256 .f32) (r : Fin 2000) (c : Fin 256) :
    centered X (ix2 r c) = X (ix2 r c) - mean (fun c' => X (ix2 r c')) := by
  unfold centered
  show X (ix2 r c) - _ = _
  refine congrArg (X (ix2 r c) - ·) ?_
  exact (broadcastTo_a1_ab_apply _ _ r c).trans (rowMean_apply X r 0)

/-- The normalized block, scaled by the one row `x4` of gammas. -/
def lnBlock (H : FVec Ideal S2000x256 .f32) (x4 : Vec Ideal S1x256 .f32) : FVec Ideal S2000x256 .f32 :=
  mulf (mulf (centered H)
      (broadcastTo S2000x256 (rsqrt (addf (rowMean (mulf (centered H) (centered H))) (broadcast S2000x1 (Scalar.ofBits .f32 0x3727C5AC#32))))
        broadcasts_S2000x1_S2000x256))
    (broadcastTo S2000x256 (shapeCast S1x256 x4 shapeCasts_S1x256_S1x256) broadcasts_S1x256_S2000x256)

/-- The stored block is the normalized hidden block plus the one row of betas. -/
theorem node_payload_eq (x0 x1 : Vec Ideal S2000x128 .f32) (x2 x3 : Vec Ideal S128x256 .f32) (x4 x5 : Vec Ideal S1x256 .f32) :
    k1_pay1 (F := Ideal) (k1_pay2 x0 x1 x2 x3 x4) (k1_pay3 x5)
      = addf (lnBlock (hidBlock x0 x1 x2 x3) x4)
          (broadcastTo S2000x256 (shapeCast S1x256 x5 shapeCasts_S1x256_S1x256) broadcasts_S1x256_S2000x256) := rfl

/-- The stored value of the node kernel at row `r`, column `h` of its block. -/
theorem node_payload (x0 x1 : Vec Ideal S2000x128 .f32) (x2 x3 : Vec Ideal S128x256 .f32) (x4 x5 : Vec Ideal S1x256 .f32)
    (r : Fin 2000) (h : Fin 256) :
    k1_pay1 (F := Ideal) (k1_pay2 x0 x1 x2 x3 x4) (k1_pay3 x5) (ix2 r h)
      = nodeOut (fun k => x0 (ix2 r k)) (fun k => x1 (ix2 r k)) x2 x3
          (fun c => x4 (ix2 (0 : Fin 1) c)) (fun c => x5 (ix2 (0 : Fin 1) c)) h := by
  rw [node_payload_eq]
  unfold lnBlock nodeOut normed
  have hH : (fun c => hidBlock x0 x1 x2 x3 (ix2 r c)) = hid (fun k => x0 (ix2 r k)) (fun k => x1 (ix2 r k)) x2 x3 :=
    funext fun c => hidBlock_apply x0 x1 x2 x3 r c
  rw [← hH]
  show _ * _ * _ + _ = _
  refine congrArg₂ (· + ·) (congrArg₂ (· * ·) (congrArg₂ (· * ·) (centered_apply _ r h) ?_) ?_) ?_
  · refine (broadcastTo_a1_ab_apply _ _ r h).trans ?_
    show Ideal.rsqrt (_ + Ideal.ofBits .f32 0x3727C5AC#32) = _
    refine congrArg (fun s => Ideal.rsqrt (s + _)) ?_
    refine (rowMean_apply _ r 0).trans ?_
    refine congrArg mean (funext fun c => ?_)
    show _ * _ = _
    rw [centered_apply]
  · refine (broadcastTo_1b_ab_apply _ _ r h).trans ?_
    exact congrFun (shapeCast_self x4 _) _
  · refine (broadcastTo_1b_ab_apply _ _ r h).trans ?_
    exact congrFun (shapeCast_self x5 _) _

end Cert.KernelIdeal.Hand

end
-- ==== Proof.NodeBlocks.lean ====
/-
  From the node kernel's blocks to the whole result array. Grid point `t` of 25 handles nodes
  `2000 t … 2000 t + 1999`: it reads rows `2000 t + r` of the node features and of the averaged neighbour features,
  both weight matrices whole and the one row each of gamma and beta, and writes rows `2000 t + r` of the result.
  So the block point `t` writes back is block `t` of ONE function of the six arrays — at `(n, h)`, the
  layer-normalized rectified row of node `n` at column `h` — and the 25 blocks tile the array (node `n` lies in
  the block of point `n / 2000`).
-/
import proofs.«163711_j14353780704090_1_alg».proof.Proof.Gen.KernelIdeal.Frame
import proofs.«163711_j14353780704090_1_alg».proof.Proof.NodePayload
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen Idealize.ShloMosaic Idealize.ShloMosaic.TcCoe Idealize.ShloMosaic.ValueIdx
open Idealize.SL.Sem Cert.RowMath
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The result array as one function of the node features `z`, the averaged neighbour features `A`, the two weight
    matrices and the rows `g2`, `b2` of gamma and beta: at `(n, h)`, `nodeOut (z row n) (A row n) Ws Wn g2 b2 h`. -/
def nodeArr (z A : S50000x128.Idx → EReal) (Ws Wn : S128x256.Idx → EReal) (g2 b2 : S1x256.Idx → EReal) :
    S50000x256.Idx → EReal := fun i =>
  nodeOut (fun k => z (ix2 (⟨(i 0).val, idx2_lt0 i⟩ : Fin 50000) k))
    (fun k => A (ix2 (⟨(i 0).val, idx2_lt0 i⟩ : Fin 50000) k)) Ws Wn
    (fun c => g2 (ix2 (0 : Fin 1) c)) (fun c => b2 (ix2 (0 : Fin 1) c)) ⟨(i 1).val, idx2_lt1 i⟩

/-- Where the node kernel's windows sit at point `t`: the three node-indexed windows at block row `t`, the four
    whole-array windows at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of the result array. -/
theorem flushed1_eq (c : Dev nD) (t : Fin cfg1.N) :
    (dat1 V c).flushed 6 t
      = ((cfg1.win 6).blk t).view.read (Elt Ideal)
          (nodeArr (V c main_arg0) (V c main_v24) (V c main_arg3) (V c main_arg4) (V c main_v25) (V c main_v26)) := by
  show (cfg1.win 6).cut (grid1.coords t) ((dat1 V c).after 6 t) = _
  rw [after1_6]
  unfold out1_6
  rw [View.canon_unit_zero hz2']
  simp only [View.ld_unit_zero (S := S2000x128) hz2', View.ld_unit_zero (S := S128x256) hz2', View.ld_unit_zero (S := S1x256) hz2']
  obtain ⟨e0, e1, e2, e3, e4, e5, e6, e7, e8, e9, e10, e11, e12, e13⟩ := idx_facts1 t
  funext j
  obtain ⟨r, h, rfl⟩ : ∃ (r : Fin 2000) (h : Fin 256), j = ix2 r h := ⟨j 0, j 1, eq_ix2 j⟩
  show k1_pay1 (F := Ideal) (k1_pay2 (iblk1 V c 0 t) (iblk1 V c 1 t) (iblk1 V c 2 t) (iblk1 V c 3 t) (iblk1 V c 4 t)) (k1_pay3 (iblk1 V c 5 t)) (ix2 r h)
    = nodeArr (V c main_arg0) (V c main_v24) (V c main_arg3) (V c main_arg4) (V c main_v25) (V c main_v26) (((cfg1.win 6).blk t).view.emb (ix2 r h))
  refine (node_payload (iblk1 V c 0 t) (iblk1 V c 1 t) (iblk1 V c 2 t) (iblk1 V c 3 t) (iblk1 V c 4 t) (iblk1 V c 5 t) r h).trans ?_
  unfold nodeArr
  have hr : r.val < 2000 := r.isLt
  have hh : h.val < 256 := h.isLt
  have hcol : h = (⟨((((cfg1.win 6).blk t).view.emb (ix2 r h)) 1).val, idx2_lt1 _⟩ : Fin 256) := Fin.ext (by
    show h.val = win1_6.index t (1 : Fin 2) * 256 + 1 * h.val; omega)
  have hz : (fun k => iblk1 V c 0 t (ix2 r k))
      = fun k => V c main_arg0 (ix2 (⟨((((cfg1.win 6).blk t).view.emb (ix2 r h)) 0).val, idx2_lt0 _⟩ : Fin 50000) k) :=
    funext fun k => by
      show V c main_arg0 (((cfg1.win 0).blk t).view.emb (ix2 r k)) = V c main_arg0 _
      refine congrArg (V c main_arg0) (funext fun a => Fin.ext ?_)
      match a with
      | ⟨0, _⟩ => show win1_0.index t (0 : Fin 2) * 2000 + 1 * r.val = win1_6.index t (0 : Fin 2) * 2000 + 1 * r.val; omega
      | ⟨1, _⟩ => show win1_0.index t (1 : Fin 2) * 128 + 1 * k.val = k.val; omega
  have ha : (fun k => iblk1 V c 1 t (ix2 r k))
      = fun k => V c main_v24 (ix2 (⟨((((cfg1.win 6).blk t).view.emb (ix2 r h)) 0).val, idx2_lt0 _⟩ : Fin 50000) k) :=
    funext fun k => by
      show V c main_v24 (((cfg1.win 1).blk t).view.emb (ix2 r k)) = V c main_v24 _
      refine congrArg (V c main_v24) (funext fun a => Fin.ext ?_)
      match a with
      | ⟨0, _⟩ => show win1_1.index t (0 : Fin 2) * 2000 + 1 * r.val = win1_6.index t (0 : Fin 2) * 2000 + 1 * r.val; omega
      | ⟨1, _⟩ => show win1_1.index t (1 : Fin 2) * 128 + 1 * k.val = k.val; omega
  have hws : (iblk1 V c 2 t : S128x256.Idx → EReal) = V c main_arg3 := funext fun y => by
    show V c main_arg3 (((cfg1.win 2).blk t).view.emb y) = V c main_arg3 y
    refine congrArg (V c main_arg3) (funext fun a => Fin.ext ?_)
    match a with
    | ⟨0, _⟩ => show win1_2.index t (0 : Fin 2) * 128 + 1 * (y 0).val = (y 0).val; omega
    | ⟨1, _⟩ => show win1_2.index t (1 : Fin 2) * 256 + 1 * (y 1).val = (y 1).val; omega
  have hwn : (iblk1 V c 3 t : S128x256.Idx → EReal) = V c main_arg4 := funext fun y => by
    show V c main_arg4 (((cfg1.win 3).blk t).view.emb y) = V c main_arg4 y
    refine congrArg (V c main_arg4) (funext fun a => Fin.ext ?_)
    match a with
    | ⟨0, _⟩ => show win1_3.index t (0 : Fin 2) * 128 + 1 * (y 0).val = (y 0).val; omega
    | ⟨1, _⟩ => show win1_3.index t (1 : Fin 2) * 256 + 1 * (y 1).val = (y 1).val; omega
  have hg : (fun c' => iblk1 V c 4 t (ix2 (0 : Fin 1) c')) = fun c' => V c main_v25 (ix2 (0 : Fin 1) c') :=
    funext fun k => by
      show V c main_v25 (((cfg1.win 4).blk t).view.emb (ix2 (0 : Fin 1) k)) = V c main_v25 _
      refine congrArg (V c main_v25) (funext fun a => Fin.ext ?_)
      match a with
      | ⟨0, _⟩ => show win1_4.index t (0 : Fin 2) * 1 + 1 * 0 = 0; omega
      | ⟨1, _⟩ => show win1_4.index t (1 : Fin 2) * 256 + 1 * k.val = k.val; omega
  have hb : (fun c' => iblk1 V c 5 t (ix2 (0 : Fin 1) c')) = fun c' => V c main_v26 (ix2 (0 : Fin 1) c') :=
    funext fun k => by
      show V c main_v26 (((cfg1.win 5).blk t).view.emb (ix2 (0 : Fin 1) k)) = V c main_v26 _
      refine congrArg (V c main_v26) (funext fun a => Fin.ext ?_)
      match a with
      | ⟨0, _⟩ => show win1_5.index t (0 : Fin 2) * 1 + 1 * 0 = 0; omega
      | ⟨1, _⟩ => show win1_5.index t (1 : Fin 2) * 256 + 1 * k.val = k.val; omega
  rw [hz, ha, hws, hwn, hg, hb, ← hcol]

/-- An index of the result array is in point `t`'s block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v27).slice (win1_6.rect t)).set ↔ _
  rw [View.set_slice_whole, Rect.mem_set_unit]
  exact Iff.rfl

/-- Every index of the result array is in some point's block: node `n` in that of point `n / 2000`. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : grid1.N = 25 := N_1
  have ht : (i 0).val / 2000 < cfg1.N := by show (i 0).val / 2000 < grid1.N; rw [hN]; omega
  obtain ⟨_, _, _, _, _, _, _, _, _, _, _, _, e12, e13⟩ := idx_facts1 ⟨(i 0).val / 2000, ht⟩
  refine ⟨⟨(i 0).val / 2000, ht⟩, flush1_6 _, ?_⟩
  rw [mem_blk1]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e12]; show (i 0).val / 2000 * 2000 ≤ (i 0).val ∧ (i 0).val < (i 0).val / 2000 * 2000 + 2000; omega
  | ⟨1, _⟩ =>
    show win1_6.index ⟨(i 0).val / 2000, ht⟩ (1 : Fin 2) * 256 ≤ (i 1).val
      ∧ (i 1).val < win1_6.index ⟨(i 0).val / 2000, ht⟩ (1 : Fin 2) * 256 + 256
    rw [e13]; omega

/-- THE RESULT ARRAY after the node kernel's run. -/
theorem final1 (c : Dev nD) :
    (dat1 V c).arrAt 6 cfg1.N
      = nodeArr (V c main_arg0) (V c main_v24) (V c main_arg3) (V c main_arg4) (V c main_v25) (V c main_v26) :=
  (dat1 V c).arrAt_eq_of_cover 6 _ (fun t _ => flushed1_eq V c t) cover1

end Cert.KernelIdeal.Hand

end
-- ==== Proof.KHost.lean ====
/-
  The kernel program's host side, and its result as one function of the arguments.

  Before the edge kernel the host gathers, for every edge, the feature row of the edge's source node (negative
  indices wrapped by the node count), and lays the eight edge weights as one row. Between the two kernels it
  scatter-adds the edge messages into their destination nodes, counts each node's incoming edges the same way,
  clamps the count at one and divides: the averaged neighbour features. It also lays gamma and beta as one row each.
  Reading the buffer contents at each boundary back to the launch memory gives the result array as
  `nodeArr` of the node features, the averaged neighbour features of the messages `msgArr`, the weights, gamma, beta.
-/
import proofs.«163711_j14353780704090_1_alg».proof.Proof.Gen.KernelIdeal.Frame
import proofs.«163711_j14353780704090_1_alg».proof.Proof.EdgeBlocks
import proofs.«163711_j14353780704090_1_alg».proof.Proof.NodeBlocks
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.Pipeline (Dat)

/-! ## The host stages as functions of the argument arrays -/

/-- The destination node of every edge, as the scatter's index column. -/
def dstCol (x1 : (⟨S2x1600000, .i32⟩ : BufTy).Contents (Elt Ideal)) : (⟨S1600000x1, .i32⟩ : BufTy).Contents (Elt Ideal) :=
  broadcastInDim S1600000x1 ![0] bcast_S1600000_S1600000x1_0
    (shapeCast S1600000 (extractStridedSlice S1x1600000 ![1, 0] x1 slices_S2x1600000_S1x1600000_1_0) shapeCasts_S1x1600000_S1600000)

/-- The source node of every edge, a negative index wrapped by the node count, as the gather's index column. -/
def srcCol (x1 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (shapeCast S1600000 (extractStridedSlice S1x1600000 ![0, 0] x1 slices_S2x1600000_S1x1600000_0_0) shapeCasts_S1x1600000_S1600000)
        (broadcastInDim S1600000 ![] bcast_S_S1600000 (constantI S_ 32 0#32)))
      (addi (shapeCast S1600000 (extractStridedSlice S1x1600000 ![0, 0] x1 slices_S2x1600000_S1x1600000_0_0) shapeCasts_S1x1600000_S1600000)
        (broadcastInDim S1600000 ![] bcast_S_S1600000 (constantI S_ 32 50000#32)))
      (shapeCast S1600000 (extractStridedSlice S1x1600000 ![0, 0] x1 slices_S2x1600000_S1x1600000_0_0) shapeCasts_S1x1600000_S1600000))

/-- The gathered source features: row `e` is the feature row of edge `e`'s source node. -/
def srcFeat (x0 : (⟨S50000x128, .f32⟩ : BufTy).Contents (Elt Ideal)) (x1 : (⟨S2x1600000, .i32⟩ : BufTy).Contents (Elt Ideal)) :
    (⟨S1600000x128, .f32⟩ : BufTy).Contents (Elt Ideal) :=
  Host.gather gather_S50000x128_S1600000x1_S1600000x128_1_0_n_n_0_1_1128 x0 (srcCol x1)

/-- The averaged neighbour features of a message array: the messages summed into their destination nodes, divided
    by the destination's edge count clamped at one. -/
def aggOf (x1 : (⟨S2x1600000, .i32⟩ : BufTy).Contents (Elt Ideal)) (M : FVec Ideal S1600000x128 .f32) :
    FVec Ideal S50000x128 .f32 :=
  Host.divf (F := Ideal)
    (Host.scatterAdd (F := Ideal) scatter_S50000x128_S1600000x1_S1600000x128_1_0_0_1
      (broadcastInDim S50000x128 ![] bcast_S_S50000x128 (constant (F := Ideal) S_ .f32 0x00000000#32)) (dstCol x1) M)
    (broadcastInDim S50000x128 ![0, 1] bcast_S50000x1_S50000x128_0_1
      (broadcastInDim S50000x1 ![0] bcast_S50000_S50000x1_0
        (maximumf (F := Ideal)
          (Host.scatterAdd (F := Ideal) scatter_S50000_S1600000x1_S1600000_n_0_0_1
            (broadcastInDim S50000 ![] bcast_S_S50000 (constant (F := Ideal) S_ .f32 0x00000000#32)) (dstCol x1)
            (broadcastInDim S1600000 ![] bcast_S_S1600000 (constant (F := Ideal) S_ .f32 0x3F800000#32)))
          (broadcastInDim S50000 ![] bcast_S_S50000 (constant (F := Ideal) S_ .f32 0x3F800000#32)))))

/-- The kernel program's result as one function of its eight arguments. -/
def kres (x0 : (⟨S50000x128, .f32⟩ : BufTy).Contents (Elt Ideal)) (x1 : (⟨S2x1600000, .i32⟩ : BufTy).Contents (Elt Ideal))
    (x2 : (⟨S1600000x8, .f32⟩ : BufTy).Contents (Elt Ideal)) (x3 x4 : (⟨S128x256, .f32⟩ : BufTy).Contents (Elt Ideal))
    (x5 : (⟨S8x1, .f32⟩ : BufTy).Contents (Elt Ideal)) (x6 x7 : (⟨S256, .f32⟩ : BufTy).Contents (Elt Ideal)) :
    (⟨S50000x256, .f32⟩ : BufTy).Contents (Elt Ideal) :=
  nodeArr x0 (aggOf x1 (msgArr (srcFeat x0 x1) x2 (shapeCast S1x8 x5 shapeCasts_S8x1_S1x8))) x3 x4
    (shapeCast S1x256 x6 shapeCasts_S256_S1x256) (shapeCast S1x256 x7 shapeCasts_S256_S1x256)

/-! ## The buffer contents at the boundaries, read back to the launch memory -/

variable (m : (ℓ : Loc nD τ sig) → Buf (Elt Ideal) ℓ) (ρ : Dev nD → PrngReg)

theorem V1_v10 (c : Dev nD) : V1 m ρ c main_v10
    = srcFeat (m ((c : Thread nD τ).loc main_arg0)) (m ((c : Thread nD τ).loc main_arg1)) := by
  show StableHlo.after hostOps0 (W0 m ρ c) (Proc.devRef .tc main_v10) = _
  simp only [hostOps0]
  after_results
  rfl

theorem V1_arg2 (c : Dev nD) : V1 m ρ c main_arg2 = m ((c : Thread nD τ).loc main_arg2) := by
  show StableHlo.after hostOps0 (W0 m ρ c) (Proc.devRef .tc main_arg2) = _
  simp only [hostOps0]
  after_results

theorem V1_v11 (c : Dev nD) : V1 m ρ c main_v11
    = shapeCast S1x8 (m ((c : Thread nD τ).loc main_arg5)) shapeCasts_S8x1_S1x8 := by
  show StableHlo.after hostOps0 (W0 m ρ c) (Proc.devRef .tc main_v11) = _
  simp only [hostOps0]
  after_results
  rfl

/-- The message array at the edge kernel's exit. -/
theorem W2_v12 (c : Dev nD) : W2 m ρ c (Proc.devRef .tc main_v12)
    = msgArr (srcFeat (m ((c : Thread nD τ).loc main_arg0)) (m ((c : Thread nD τ).loc main_arg1)))
        (m ((c : Thread nD τ).loc main_arg2)) (shapeCast S1x8 (m ((c : Thread nD τ).loc main_arg5)) shapeCasts_S8x1_S1x8) := by
  refine (W2_arr m ρ c 3).trans ?_
  rw [final0 (V1 m ρ) c, V1_v10, V1_arg2, V1_v11]

theorem W2_v3 (c : Dev nD) : broadcastInDim S1600000x1 ![0] bcast_S1600000_S1600000x1_0 (W2 m ρ c (Proc.devRef .tc main_v3))
    = dstCol (m ((c : Thread nD τ).loc main_arg1)) := by
  rw [W2_of_ne m ρ c main_v3 (by decide)]
  show broadcastInDim S1600000x1 ![0] bcast_S1600000_S1600000x1_0 (StableHlo.after hostOps0 (W0 m ρ c) (Proc.devRef .tc main_v3)) = _
  simp only [hostOps0]
  after_results
  rfl

theorem W2_arg (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

theorem W2_arg6 (c : Dev nD) : W2 m ρ c (Proc.devRef .tc main_arg6) = m ((c : Thread nD τ).loc main_arg6) :=
  W2_arg m ρ c main_arg6 (by decide) (by simp only [hostOps0]; after_results)
theorem W2_arg7 (c : Dev nD) : W2 m ρ c (Proc.devRef .tc main_arg7) = m ((c : Thread nD τ).loc main_arg7) :=
  W2_arg m ρ c main_arg7 (by decide) (by simp only [hostOps0]; after_results)
theorem W2_arg0 (c : Dev nD) : W2 m ρ c (Proc.devRef .tc main_arg0) = m ((c : Thread nD τ).loc main_arg0) :=
  W2_arg m ρ c main_arg0 (by decide) (by simp only [hostOps0]; after_results)
theorem W2_arg3 (c : Dev nD) : W2 m ρ c (Proc.devRef .tc main_arg3) = m ((c : Thread nD τ).loc main_arg3) :=
  W2_arg m ρ c main_arg3 (by decide) (by simp only [hostOps0]; after_results)
theorem W2_arg4 (c : Dev nD) : W2 m ρ c (Proc.devRef .tc main_arg4) = m ((c : Thread nD τ).loc main_arg4) :=
  W2_arg m ρ c main_arg4 (by decide) (by simp only [hostOps0]; after_results)

theorem V3_arg0 (c : Dev nD) : V3 m ρ c main_arg0 = m ((c : Thread nD τ).loc main_arg0) := by
  show StableHlo.after hostOps1 (W2 m ρ c) (Proc.devRef .tc main_arg0) = _
  simp only [hostOps1]
  after_results
  exact W2_arg0 m ρ c
theorem V3_arg3 (c : Dev nD) : V3 m ρ c main_arg3 = m ((c : Thread nD τ).loc main_arg3) := by
  show StableHlo.after hostOps1 (W2 m ρ c) (Proc.devRef .tc main_arg3) = _
  simp only [hostOps1]
  after_results
  exact W2_arg3 m ρ c
theorem V3_arg4 (c : Dev nD) : V3 m ρ c main_arg4 = m ((c : Thread nD τ).loc main_arg4) := by
  show StableHlo.after hostOps1 (W2 m ρ c) (Proc.devRef .tc main_arg4) = _
  simp only [hostOps1]
  after_results
  exact W2_arg4 m ρ c

theorem V3_v25 (c : Dev nD) : V3 m ρ c main_v25
    = shapeCast S1x256 (m ((c : Thread nD τ).loc main_arg6)) shapeCasts_S256_S1x256 := by
  show StableHlo.after hostOps1 (W2 m ρ c) (Proc.devRef .tc main_v25) = _
  simp only [hostOps1]
  after_results
  rw [W2_arg6]
  rfl
theorem V3_v26 (c : Dev nD) : V3 m ρ c main_v26
    = shapeCast S1x256 (m ((c : Thread nD τ).loc main_arg7)) shapeCasts_S256_S1x256 := by
  show StableHlo.after hostOps1 (W2 m ρ c) (Proc.devRef .tc main_v26) = _
  simp only [hostOps1]
  after_results
  rw [W2_arg7]
  rfl

/-- The averaged neighbour features at the node kernel's entry. -/
theorem V3_v24 (c : Dev nD) : V3 m ρ c main_v24
    = aggOf (m ((c : Thread nD τ).loc main_arg1))
        (msgArr (srcFeat (m ((c : Thread nD τ).loc main_arg0)) (m ((c : Thread nD τ).loc main_arg1)))
          (m ((c : Thread nD τ).loc main_arg2)) (shapeCast S1x8 (m ((c : Thread nD τ).loc main_arg5)) shapeCasts_S8x1_S1x8)) := by
  show StableHlo.after hostOps1 (W2 m ρ c) (Proc.devRef .tc main_v24) = _
  simp only [hostOps1]
  after_results
  rw [W2_v3, W2_v12]
  rfl

/-- THE RESULT ARRAY at the last boundary, as the one function of the launch contents of the arguments. -/
theorem W4_v27 (c : Dev nD) : W4 m ρ c (Proc.devRef .tc main_v27)
    = kres (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 6).trans ?_
  rw [final1 (V3 m ρ) c, V3_arg0, V3_arg3, V3_arg4, V3_v24, V3_v25, V3_v26]
  rfl

end Cert.KernelIdeal.Hand

end
-- ==== Proof.NodeRef.lean ====
/-
  The reference's last stretch read row by row: from the averaged neighbour features on, the reference's result at
  node `n`, hidden column `h` is the layer-normalized rectified row of `RowMath`, over the node's feature row,
  its averaged neighbour row, the two weight matrices, gamma and beta.
-/
import proofs.«163711_j14353780704090_1_alg».proof.Proof.Gen.ReferenceIdeal.Read
import proofs.«163711_j14353780704090_1_alg».proof.Proof.RowMath
import Idealize.ShloMosaic.Lib.ValueIdx
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx Cert.RowMath

variable (x0 : (⟨S50000x128, .f32⟩ : BufTy).Contents (Elt Ideal)) (x1 : (⟨S2x1600000, .i32⟩ : BufTy).Contents (Elt Ideal))
  (x2 : (⟨S1600000x8, .f32⟩ : BufTy).Contents (Elt Ideal)) (x3 x4 : (⟨S128x256, .f32⟩ : BufTy).Contents (Elt Ideal))
  (x5 : (⟨S8x1, .f32⟩ : BufTy).Contents (Elt Ideal)) (x6 x7 : (⟨S256, .f32⟩ : BufTy).Contents (Elt Ideal))

/-! The composed index functions of the reading lemmas, at indices given by coordinates. -/

theorem lidx32 (n : Fin 50000) (c : Fin 256) (k : Fin 128) : lidx_main_v32 (ix2 n c) k = ix2 n k :=
  funext fun a => Fin.ext (by match a with | ⟨0, _⟩ => rfl | ⟨1, _⟩ => rfl)
theorem ridx32 (n : Fin 50000) (c : Fin 256) (k : Fin 128) : ridx_main_v32 (ix2 n c) k = ix2 k c :=
  funext fun a => Fin.ext (by match a with | ⟨0, _⟩ => rfl | ⟨1, _⟩ => rfl)
theorem lidx35 (n : Fin 50000) (c : Fin 256) (k : Fin 128) : lidx_main_v35 (ix2 n c) k = ix2 n k :=
  funext fun a => Fin.ext (by match a with | ⟨0, _⟩ => rfl | ⟨1, _⟩ => rfl)
theorem ridx35 (n : Fin 50000) (c : Fin 256) (k : Fin 128) : ridx_main_v35 (ix2 n c) k = ix2 k c :=
  funext fun a => Fin.ext (by match a with | ⟨0, _⟩ => rfl | ⟨1, _⟩ => rfl)
theorem idx38 (n : Fin 50000) (u : Fin 1) (k : Fin 256) : idx_main_v38 (idx_main_v39 (ix2 n u)) k = ix2 n k :=
  funext fun a => Fin.ext (by match a with | ⟨0, _⟩ => rfl | ⟨1, _⟩ => rfl)
theorem idx45 (n : Fin 50000) (u : Fin 1) (k : Fin 256) : idx_main_v45 (idx_main_v46 (ix2 n u)) k = ix2 n k :=
  funext fun a => Fin.ext (by match a with | ⟨0, _⟩ => rfl | ⟨1, _⟩ => rfl)
theorem idx42 (n : Fin 50000) (c : Fin 256) : idx_main_v42 (ix2 n c) = ix2 n (0 : Fin 1) :=
  funext fun a => Fin.ext (by match a with | ⟨0, _⟩ => rfl | ⟨1, _⟩ => rfl)
theorem idx49 (n : Fin 50000) (c : Fin 256) : idx_main_v49 (ix2 n c) = ix2 n (0 : Fin 1) :=
  funext fun a => Fin.ext (by match a with | ⟨0, _⟩ => rfl | ⟨1, _⟩ => rfl)
theorem idx54 (n : Fin 50000) (c : Fin 256) : idx_main_v54 (ix2 n c) = ix2 n (0 : Fin 1) :=
  funext fun a => Fin.ext (by match a with | ⟨0, _⟩ => rfl | ⟨1, _⟩ => rfl)
theorem idx56 (n : Fin 50000) (c : Fin 256) : idx_main_v56 (idx_main_v57 (ix2 n c)) = ix1 c :=
  funext fun a => Fin.ext (by match a with | ⟨0, _⟩ => rfl)
theorem idx59 (n : Fin 50000) (c : Fin 256) : idx_main_v59 (idx_main_v60 (ix2 n c)) = ix1 c :=
  funext fun a => Fin.ext (by match a with | ⟨0, _⟩ => rfl)

/-- The rectified hidden row of the reference. -/
theorem ref_hid (n : Fin 50000) (c : Fin 256) :
    val_main_v37 (F := Ideal) x0 x1 x2 x3 x4 x5 (ix2 n c)
      = hid (fun k => x0 (ix2 n k)) (fun k => val_main_v34 (F := Ideal) x0 x1 x2 x5 (ix2 n k)) x3 x4 c := by
  rw [val_main_v37_apply, val_main_v36_apply, val_main_v32_apply, val_main_v35_apply, val_main_call0_v0_apply,
    val_main_call0_cst_apply]
  simp only [lidx32, ridx32, lidx35, ridx35]
  rfl

/-- The reference's row mean of the hidden row. -/
theorem ref_mean (n : Fin 50000) (u : Fin 1) :
    val_main_v41 (F := Ideal) x0 x1 x2 x3 x4 x5 (ix2 n u)
      = mean (fun c => val_main_v37 (F := Ideal) x0 x1 x2 x3 x4 x5 (ix2 n c)) := by
  rw [val_main_v41_apply, val_main_v39_apply, val_main_v38_apply, val_main_v40_apply, val_main_cst_8_apply,
    val_main_cst_7_apply]
  simp only [idx38]
  unfold mean
  show Ideal.div (Ideal.ofBits .f32 0x00000000#32 + _) _ = _
  rw [Ideal.ofBits_zero_f32, zero_add]
  rfl

/-- The reference's centred hidden row (its first spelling, the one that is squared). -/
theorem ref_cen (n : Fin 50000) (c : Fin 256) :
    val_main_v43 (F := Ideal) x0 x1 x2 x3 x4 x5 (ix2 n c)
      = val_main_v37 (F := Ideal) x0 x1 x2 x3 x4 x5 (ix2 n c)
        - mean (fun c' => val_main_v37 (F := Ideal) x0 x1 x2 x3 x4 x5 (ix2 n c')) := by
  rw [val_main_v43_apply, val_main_v42_apply, idx42, ref_mean]
  rfl

/-- The reference's centred hidden row (its second spelling, the one that is normalized). -/
theorem ref_cen' (n : Fin 50000) (c : Fin 256) :
    val_main_v50 (F := Ideal) x0 x1 x2 x3 x4 x5 (ix2 n c)
      = val_main_v37 (F := Ideal) x0 x1 x2 x3 x4 x5 (ix2 n c)
        - mean (fun c' => val_main_v37 (F := Ideal) x0 x1 x2 x3 x4 x5 (ix2 n c')) := by
  rw [val_main_v50_apply, val_main_v49_apply, idx49, ref_mean]
  rfl

/-- The reference's row variance. -/
theorem ref_var (n : Fin 50000) (u : Fin 1) :
    val_main_v48 (F := Ideal) x0 x1 x2 x3 x4 x5 (ix2 n u)
      = mean (fun c => (val_main_v37 (F := Ideal) x0 x1 x2 x3 x4 x5 (ix2 n c)
            - mean (fun c' => val_main_v37 (F := Ideal) x0 x1 x2 x3 x4 x5 (ix2 n c')))
          * (val_main_v37 (F := Ideal) x0 x1 x2 x3 x4 x5 (ix2 n c)
            - mean (fun c' => val_main_v37 (F := Ideal) x0 x1 x2 x3 x4 x5 (ix2 n c')))) := by
  rw [val_main_v48_apply, val_main_v46_apply, val_main_v45_apply, val_main_v47_apply, val_main_cst_10_apply,
    val_main_cst_9_apply]
  simp only [idx45, val_main_v44_apply, ref_cen]
  unfold mean
  show Ideal.div (Ideal.ofBits .f32 0x00000000#32 + _) _ = _
  rw [Ideal.ofBits_zero_f32, zero_add]
  rfl

/-- THE REFERENCE'S RESULT at node `n`, column `h`. -/
theorem ref_node (n : Fin 50000) (h : Fin 256) :
    val_main_v61 (F := Ideal) x0 x1 x2 x3 x4 x5 x6 x7 (ix2 n h)
      = nodeOut (fun k => x0 (ix2 n k)) (fun k => val_main_v34 (F := Ideal) x0 x1 x2 x5 (ix2 n k)) x3 x4
          (fun c => x6 (ix1 c)) (fun c => x7 (ix1 c)) h := by
  rw [val_main_v61_apply, val_main_v58_apply, val_main_v55_apply, val_main_v54_apply, val_main_v53_apply,
    val_main_v52_apply, val_main_v51_apply, val_main_cst_11_apply, val_main_v57_apply, val_main_v56_apply,
    val_main_v60_apply, val_main_v59_apply, ref_cen', idx54, ref_var, idx56, idx59]
  unfold nodeOut normed
  have hH : (fun c => val_main_v37 (F := Ideal) x0 x1 x2 x3 x4 x5 (ix2 n c))
      = hid (fun k => x0 (ix2 n k)) (fun k => val_main_v34 (F := Ideal) x0 x1 x2 x5 (ix2 n k)) x3 x4 :=
    funext fun c => ref_hid x0 x1 x2 x3 x4 x5 n c
  rw [← hH]
  rfl

end Cert.ReferenceIdeal.Hand

end
-- ==== Proof.EdgeRef.lean ====
/-
  The reference's edge messages read at an edge `e` and a lane `d`: the gathered source feature at `(e, d)` times
  the gate of edge `e`. The reference spells the logistic out — one over one plus the exponential of the negated
  inner product — which is the logistic function of `RowMath`, the literal `1.0` denoting `1`.
-/
import proofs.«163711_j14353780704090_1_alg».proof.Proof.Gen.ReferenceIdeal.Read
import proofs.«163711_j14353780704090_1_alg».proof.Proof.RowMath
import Idealize.ShloMosaic.Lib.ValueIdx
import Idealize.ShloMosaic.PureOps.Ideal.Laws

noncomputable section

open scoped BigOperators

namespace Cert.ReferenceIdeal.Hand

open Cert.ReferenceIdeal Cert.ReferenceIdeal.Read Idealize.ShloMosaic Idealize.ShloMosaic.ValueIdx Cert.RowMath

variable (x0 : (⟨S50000x128, .f32⟩ : BufTy).Contents (Elt Ideal)) (x1 : (⟨S2x1600000, .i32⟩ : BufTy).Contents (Elt Ideal))
  (x2 : (⟨S1600000x8, .f32⟩ : BufTy).Contents (Elt Ideal)) (x5 : (⟨S8x1, .f32⟩ : BufTy).Contents (Elt Ideal))

theorem idx20 (e : Fin 1600000) (d : Fin 128) : idx_main_v20 (ix2 e d) = ix2 e (0 : Fin 1) :=
  funext fun a => Fin.ext (by match a with | ⟨0, _⟩ => rfl | ⟨1, _⟩ => rfl)
theorem lidx11 (e : Fin 1600000) (k : Fin 8) : lidx_main_v11 (ix2 e (0 : Fin 1)) k = ix2 e k :=
  funext fun a => Fin.ext (by match a with | ⟨0, _⟩ => rfl | ⟨1, _⟩ => rfl)
theorem ridx11 (e : Fin 1600000) (k : Fin 8) : ridx_main_v11 (ix2 e (0 : Fin 1)) k = ix2 k (0 : Fin 1) :=
  funext fun a => Fin.ext (by match a with | ⟨0, _⟩ => rfl | ⟨1, _⟩ => rfl)

/-- The reference's gate of edge `e`. -/
theorem ref_gate (e : Fin 1600000) :
    val_main_v19 (F := Ideal) x2 x5 (ix2 e (0 : Fin 1))
      = gate (fun k => x2 (ix2 e k)) (fun k => x5 (ix2 k (0 : Fin 1))) := by
  rw [val_main_v19_apply, val_main_v17_apply, val_main_v18_apply, val_main_cst_2_apply, val_main_v16_apply,
    val_main_cst_1_apply, val_main_v15_apply, val_main_v14_apply, val_main_cst_apply, val_main_v13_apply,
    val_main_v12_apply, val_main_v11_apply]
  simp only [lidx11, ridx11]
  unfold gate
  show max (Ideal.div (Ideal.ofBits .f32 0x3F800000#32) (Ideal.ofBits .f32 0x3F800000#32 + Ideal.exp (-_))) _ = _
  rw [ofBits_one]
  rfl

/-- THE REFERENCE'S MESSAGE of edge `e` at lane `d`. -/
theorem ref_msg (e : Fin 1600000) (d : Fin 128) :
    val_main_v21 (F := Ideal) x0 x1 x2 x5 (ix2 e d)
      = val_main_v10 (F := Ideal) x0 x1 (ix2 e d) * gate (fun k => x2 (ix2 e k)) (fun k => x5 (ix2 k (0 : Fin 1))) := by
  rw [val_main_v21_apply, val_main_v20_apply, idx20, ref_gate]
  rfl

end Cert.ReferenceIdeal.Hand

end
-- ==== Proof.LibColumnRow.lean ====
/-
  One layout fact for a column laid out as a row (`w.reshape(1, a)` of an `[a, 1]` array), read at an index built
  from literal coordinates: the row's entry `(0, k)` is the column's entry `(k, 0)`. It completes the library's
  small-shape lemmas, which have the vector forms `[a] → [1, a]` and `[1, a] → [a]`.
-/
import Idealize.ShloMosaic.Lib.Pipeline.Value
import Idealize.ShloMosaic.Lib.ValueIdx

noncomputable section

namespace Cert.Lib.ColumnRow

open Idealize.ShloMosaic Idealize.ShloMosaic.ValueIdx

/-- A column `[a, 1]` cast to the row `[1, a]` reads, at `(0, k)`, the column's entry `k`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

end Cert.Lib.ColumnRow

end
-- ==== Proof.Bridge.lean ====
/-
  The two programs compute one function of the arguments.

  The kernel program's message array is the reference's: at `(e, d)` both are the gathered source feature times the
  gate of edge `e` — the kernel reads the eight edge weights as the row `[1, 8]` the host laid out, the reference
  as the column `[8, 1]` it was given. The scatter-add, the degree count and the division that follow are the same
  host operations on both sides, so the averaged neighbour features agree. The result at `(n, h)` is on both sides
  the layer-normalized rectified row of `RowMath` over the same rows — the kernel reads gamma and beta as the rows
  `[1, 256]` the host laid out, the reference broadcasts the vectors.
-/
import proofs.«163711_j14353780704090_1_alg».proof.Proof.KHost
import proofs.«163711_j14353780704090_1_alg».proof.Proof.NodeRef
import proofs.«163711_j14353780704090_1_alg».proof.Proof.EdgeRef
import proofs.«163711_j14353780704090_1_alg».proof.Proof.LibColumnRow
import Idealize.ShloMosaic.Lib.Pipeline.Value
import Idealize.ShloMosaic.Lib.ValueLayout

set_option maxRecDepth 16384

noncomputable section

namespace Cert.Bridge

open Idealize.ShloMosaic Idealize.ShloMosaic.ValueIdx Cert.RowMath
open Cert.KernelIdeal.Hand (kres aggOf msgArr srcFeat nodeArr)
open Cert.ReferenceIdeal.Read Cert.ReferenceIdeal.Hand Cert.Lib.ColumnRow

variable (x0 : (⟨Cert.ReferenceIdeal.S50000x128, .f32⟩ : BufTy).Contents (Elt Ideal))
  (x1 : (⟨Cert.ReferenceIdeal.S2x1600000, .i32⟩ : BufTy).Contents (Elt Ideal))
  (x2 : (⟨Cert.ReferenceIdeal.S1600000x8, .f32⟩ : BufTy).Contents (Elt Ideal))
  (x3 x4 : (⟨Cert.ReferenceIdeal.S128x256, .f32⟩ : BufTy).Contents (Elt Ideal))
  (x5 : (⟨Cert.ReferenceIdeal.S8x1, .f32⟩ : BufTy).Contents (Elt Ideal))
  (x6 x7 : (⟨Cert.ReferenceIdeal.S256, .f32⟩ : BufTy).Contents (Elt Ideal))

/-- The message arrays agree. -/
theorem msg_eq (h : Cert.KernelIdeal.S8x1.ShapeCasts Cert.KernelIdeal.S1x8) :
    msgArr (srcFeat x0 x1) x2 (shapeCast Cert.KernelIdeal.S1x8 x5 h) = val_main_v21 (F := Ideal) x0 x1 x2 x5 := by
  funext i
  obtain ⟨e, d, rfl⟩ : ∃ (e : Fin 1600000) (d : Fin 128), i = ix2 e d := ⟨i 0, i 1, eq_ix2 i⟩
  rw [ref_msg]
  show srcFeat x0 x1 (ix2 e d) * gate (fun k => x2 (ix2 e k)) (fun k => shapeCast Cert.KernelIdeal.S1x8 x5 h (ix2 (0 : Fin 1) k)) = _
  exact congrArg₂ (· * ·) rfl (congrArg (gate _) (funext fun k => shapeCast_a1_1a_apply x5 h k))

/-- The averaged neighbour features of the reference's messages, by the kernel program's host operations, are the
    reference's. -/
theorem agg_eq : aggOf x1 (val_main_v21 (F := Ideal) x0 x1 x2 x5) = val_main_v34 (F := Ideal) x0 x1 x2 x5 := rfl

/-- THE TWO RESULTS are one function of the arguments. -/
theorem result_eq : kres x0 x1 x2 x3 x4 x5 x6 x7 = val_main_v61 (F := Ideal) x0 x1 x2 x3 x4 x5 x6 x7 := by
  funext i
  obtain ⟨n, h, rfl⟩ : ∃ (n : Fin 50000) (h : Fin 256), i = ix2 n h := ⟨i 0, i 1, eq_ix2 i⟩
  rw [ref_node]
  unfold kres
  rw [msg_eq x0 x1 x2 x5, agg_eq]
  show nodeOut (fun k => x0 (ix2 n k)) (fun k => val_main_v34 (F := Ideal) x0 x1 x2 x5 (ix2 n k)) x3 x4
      (fun c => shapeCast Cert.KernelIdeal.S1x256 x6 _ (ix2 (0 : Fin 1) c))
      (fun c => shapeCast Cert.KernelIdeal.S1x256 x7 _ (ix2 (0 : Fin 1) c)) h = _
  exact congrArg₂ (fun g b => nodeOut _ _ x3 x4 g b h)
    (funext fun c => shapeCast_a_1a_apply x6 _ 0 c) (funext fun c => shapeCast_a_1a_apply x7 _ 0 c)

end Cert.Bridge

end
-- ==== Proof.lean ====
/-
  The certificate of a two-kernel graph layer against its jnp reference, over the extended reals.

  The layer: every edge's message is its source node's feature row scaled by a gate — the logistic of the inner
  product of the edge's attributes with the edge weights, clamped below —; a node's neighbour features are the sum of
  its incoming messages divided by its (clamped) in-degree; the node's output is the layer normalization of the
  rectified sum of two matrix products, of its own features and of its neighbour features.

  The kernel program computes the messages in a first kernel over blocks of 8000 edges and the output in a second
  kernel over blocks of 2000 nodes, the gather and the scatter-add on the host between them; the reference does
  everything on the host. Both results are ONE function of the arguments (`Cert.Bridge.result_eq`): the kernel
  program's run ends with its result array at `kres` of the launch contents (`KRun`, `KHost`, over the blocks-to-array
  modules), the reference's at its composed term (the generated run). The three frames are the generated ones; the
  idealization rewrote nothing, so `preserves` is trivial.
-/
import proofs.«163711_j14353780704090_1_alg».proof.Defs
import proofs.«163711_j14353780704090_1_alg».proof.Proof.Gen.Kernel
import proofs.«163711_j14353780704090_1_alg».proof.Proof.Gen.Kernel.Skeleton
import proofs.«163711_j14353780704090_1_alg».proof.Proof.Gen.Kernel.Launch
import proofs.«163711_j14353780704090_1_alg».proof.Proof.Gen.Kernel.Points
import proofs.«163711_j14353780704090_1_alg».proof.Proof.Gen.Kernel.Frame
import proofs.«163711_j14353780704090_1_alg».proof.Proof.Gen.KernelIdeal
import proofs.«163711_j14353780704090_1_alg».proof.Proof.Gen.KernelIdeal.Skeleton
import proofs.«163711_j14353780704090_1_alg».proof.Proof.Gen.KernelIdeal.Launch
import proofs.«163711_j14353780704090_1_alg».proof.Proof.Gen.KernelIdeal.Points
import proofs.«163711_j14353780704090_1_alg».proof.Proof.Gen.KernelIdeal.Frame
import proofs.«163711_j14353780704090_1_alg».proof.Proof.Gen.ReferenceIdeal
import proofs.«163711_j14353780704090_1_alg».proof.Proof.Gen.Pre_finite_inputs
import proofs.«163711_j14353780704090_1_alg».proof.Proof.Gen.ReferenceIdeal.Run
import proofs.«163711_j14353780704090_1_alg».proof.Proof.Gen.ReferenceIdeal.Read
import proofs.«163711_j14353780704090_1_alg».proof.Proof.KRun
import proofs.«163711_j14353780704090_1_alg».proof.Proof.KHost
import proofs.«163711_j14353780704090_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with equal results: the kernel program's result
    array at `kres` of the launch contents, the reference's at its composed term, and the two are one function. -/
theorem algebraic : Cert.algebraic_KernelIdeal_ReferenceIdeal := by
  intro m ρ m' ρ' _ hagree
  refine ⟨fun c => Cert.KernelIdeal.Hand.kres (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.W4_v27 m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v61_eq, a0, a1, a2, a3, a4, a5, a6, a7]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
